-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S32x16 .f32) (main_arg6 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x32 .f32) (main_arg4 : FVec F S32 .f32) (main_arg5 : FVec F S32x16 .f32) (main_arg6 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x32 .f32 := Host.absf main_arg3
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S4000x256 : Shape := ⟨2, ![4000, 256]⟩
abbrev S4000x32 : Shape := ⟨2, ![4000, 32]⟩
abbrev S1700000x32 : Shape := ⟨2, ![1700000, 32]⟩
abbrev S1x32 : Shape := ⟨2, ![1, 32]⟩
abbrev S100000x16 : Shape := ⟨2, ![100000, 16]⟩
abbrev S4000x16 : Shape := ⟨2, ![4000, 16]⟩
abbrev S1700000x16 : Shape := ⟨2, ![1700000, 16]⟩
abbrev S1x16 : Shape := ⟨2, ![1, 16]⟩

abbrev nBuf : Space → Nat
  | .hbm => 91
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x32, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x32, .f32⟩
  | .hbm, ⟨60, _⟩ => ⟨S1700000x32, .f32⟩
  | .hbm, ⟨61, _⟩ => ⟨S_, .f32⟩
  | .hbm, ⟨62, _⟩ => ⟨S100000x32, .f32⟩
  | .hbm, ⟨63, _⟩ => ⟨S1700000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x16, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x16, .f32⟩
  | .hbm, ⟨82, _⟩ => ⟨S1700000x16, .f32⟩
  | .hbm, ⟨83, _⟩ => ⟨S1700000x16, .f32⟩
  | .hbm, ⟨84, _⟩ => ⟨S_, .f32⟩
  | .hbm, ⟨85, _⟩ => ⟨S100000x16, .f32⟩
  | .hbm, ⟨86, _⟩ => ⟨S1700000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .local _ .vmem, ⟨0, _⟩ => ⟨S4000x256, .f32⟩
  | .local _ .vmem, ⟨1, _⟩ => ⟨S4000x256, .f32⟩
  | .local _ .vmem, ⟨2, _⟩ => ⟨S256x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S32x16, .f32⟩
  | .local _ .vmem, ⟨8, _⟩ => ⟨S4000x16, .f32⟩
  | .local _ .vmem, ⟨9, _⟩ => ⟨S4000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S4000x32_S4000x32 : S4000x32.ShapeCasts S4000x32
  inb_S32x16_S32x16_0_0 : ∀ a, (![0, 0] : Fin 2 → Nat) a + S32x16.size a ≤ S32x16.size a
  h_S32x16 : 0 < S32x16.numel
  inb_S4000x16_S4000x16_0_0 : ∀ a, (![0, 0] : Fin 2 → Nat) a + S4000x16.size a ≤ S4000x16.size a
  h_S4000x16 : 0 < S4000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x32_S4000x32_1_0_0_1_n_n_wf : DotDims.WF S4000x256 S256x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x16_S4000x16_1_0_0_1_n_n_wf : DotDims.WF S4000x32 S32x16 S4000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x32_S4000x32_1_0_0_1_n_n : DotDims S4000x256 S256x32 S4000x32 where
  lhsContracting := [1]
  rhsContracting := [0]
  lhsNonContracting := [0]
  rhsNonContracting := [1]
  lhsBatch := []
  rhsBatch := []
  wf := dot_S4000x256_S256x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 91
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x32, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x32, .f32⟩
  | .hbm, ⟨60, _⟩ => ⟨S1700000x32, .f32⟩
  | .hbm, ⟨61, _⟩ => ⟨S_, .f32⟩
  | .hbm, ⟨62, _⟩ => ⟨S100000x32, .f32⟩
  | .hbm, ⟨63, _⟩ => ⟨S1700000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x16, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x16, .f32⟩
  | .hbm, ⟨82, _⟩ => ⟨S1700000x16, .f32⟩
  | .hbm, ⟨83, _⟩ => ⟨S1700000x16, .f32⟩
  | .hbm, ⟨84, _⟩ => ⟨S_, .f32⟩
  | .hbm, ⟨85, _⟩ => ⟨S100000x16, .f32⟩
  | .hbm, ⟨86, _⟩ => ⟨S1700000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x32_S100000x32_1_0_0_1_n_n_wf : DotDims.WF S100000x256 S256x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.WholeRun.lean ====
/-
  The whole run of the idealized kernel program, with its result named.

  The program is a chain of eight segments: three stretches of host operations (edge lists with self loops, the degree
  scatter, the symmetric normalisation coefficients), the first row-panel product x·W₁ on the matrix unit, two stretches
  (gather, scale, scatter-add, bias, rectifier), the second row-panel product h·W₂, and the last stretch (gather, scale,
  scatter-add, bias). The buffer contents at each boundary are a fold from the launch memory; the last boundary's
  contents `W8` are what every unscoped buffer holds when the program returns. Here that final fact is kept for the
  result buffer as well as for the seven arguments: every weakly fair execution terminates, the result array holds
  `W8` at the result buffer, and the arguments are as launched.
-/
import proofs.«134421_j59931973648925_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents at the result buffer, and each argument array is as launched. -/
theorem run_result : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Whole

end
-- ==== Proof.Layers.lean ====
/-
  The host side of the two graph-convolution layers, as pure functions of arrays.

  The 1 600 000 edges are given as a [2, E] array of node numbers (row 0 the sources, row 1 the targets) and a weight
  per edge; every node gets a self loop of weight one, so all edge arrays below have E + N = 1 700 000 entries. With
  deg(v) the sum of the weights of the edges that end in v and d(v) = deg(v)^(-1/2) where deg(v) > 0 (zero otherwise),
  the coefficient of edge e = (s → t) is  d(s) · w(e) · d(t).  A layer takes the projected features h (one row per
  node), gathers row s of h for every edge, scales it by the edge's coefficient, adds it into row t of a zero array,
  and adds the bias to every row; the first layer is followed by the rectifier max(·, 0).

  Each stretch of host operations of the program, run from ANY buffer contents, leaves its last buffer at the matching
  function of the contents it read, and leaves the buffers it does not write as they were. Nothing is computed here:
  the statements are read off the operations one by one.
-/
import proofs.«134421_j59931973648925_1_alg».proof.Proof.Gen.KernelIdeal.Launch
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable {F : FTy → Type} [FloatOps F]

/-- The source node of every edge: row 0 of the edge array, then the self loops 0, 1, …, N - 1. -/
def sources (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target node of every edge: row 1 of the edge array, then the self loops. -/
def targets (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The weight of every edge: the given weights, then one for each self loop. -/
def weights (w : FVec F S1600000 .f32) : FVec F S1700000 .f32 :=
  concatenate S1700000 0 [⟨S1600000, w⟩, ⟨S100000, (broadcastInDim S100000 ![] bcast_S_S100000 (constant S_ .f32 0x3F800000#32))⟩] concatenates_S1600000_S100000_S1700000_d0

/-- A per-edge vector kept as a one-column matrix (the form the gathers and scatters take their indices in). -/
def column {α : Type} (v : S1700000.Idx → α) : S1700000x1.Idx → α :=
  broadcastInDim S1700000x1 ![0] bcast_S1700000_S1700000x1_0 v

/-- A negative node number counts from the end: N is added to it. -/
def wrapped (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- deg(v): the weights of the edges that end in v, added up. -/
def degree (t : IVec S1700000 32) (w : FVec F S1700000 .f32) : FVec F S100000 .f32 :=
  Host.scatterAdd scatter_S100000_S1700000x1_S1700000_n_0_0_1 (broadcastInDim S100000 ![] bcast_S_S100000 (constant S_ .f32 0x00000000#32)) (column t) w

/-- d(v) = deg(v)^(-1/2) where deg(v) > 0, and zero elsewhere. -/
def invSqrtDegree (t : IVec S1700000 32) (w : FVec F S1700000 .f32) : FVec F S100000 .f32 :=
  select (cmpf .ogt (degree t w) (broadcastInDim S100000 ![] bcast_S_S100000 (constant S_ .f32 0x00000000#32))) (Host.rsqrt (degree t w)) (broadcastInDim S100000 ![] bcast_S_S100000 (constant S_ .f32 0x00000000#32))

/-- The coefficient of every edge s → t: d(s) · w · d(t). -/
def coefficients (s t : IVec S1700000 32) (w : FVec F S1700000 .f32) : FVec F S1700000 .f32 :=
  mulf (mulf (Host.gather gather_S100000_S1700000x1_S1700000_n_0_n_n_0_1_1 (invSqrtDegree t w) (column (wrapped s))) w) (Host.gather gather_S100000_S1700000x1_S1700000_n_0_n_n_0_1_1 (invSqrtDegree t w) (column (wrapped t)))

/-- The first layer after its projection h: scaled rows of h added along the edges, the bias, the rectifier. -/
def hidden (h : FVec F S100000x32 .f32) (s t : IVec S1700000 32) (n : FVec F S1700000 .f32) (b : FVec F S32 .f32) : FVec F S100000x32 .f32 :=
  maximumf (addf (Host.scatterAdd scatter_S100000x32_S1700000x1_S1700000x32_1_0_0_1 (broadcastInDim S100000x32 ![] bcast_S_S100000x32 (constant S_ .f32 0x00000000#32)) (column t) (mulf (broadcastInDim S1700000x32 ![0, 1] bcast_S1700000x1_S1700000x32_0_1 (column n)) (Host.gather gather_S100000x32_S1700000x1_S1700000x32_1_0_n_n_0_1_132 h (column (wrapped s))))) (broadcastInDim S100000x32 ![0, 1] bcast_S1x32_S100000x32_0_1 (broadcastInDim S1x32 ![1] bcast_S32_S1x32_1 b))) (broadcastInDim S100000x32 ![] bcast_S_S100000x32 (constant S_ .f32 0x00000000#32))

/-- The second layer after its projection h: scaled rows of h added along the edges, and the bias. -/
def output (h : FVec F S100000x16 .f32) (s t : IVec S1700000 32) (n : FVec F S1700000 .f32) (b : FVec F S16 .f32) : FVec F S100000x16 .f32 :=
  addf (Host.scatterAdd scatter_S100000x16_S1700000x1_S1700000x16_1_0_0_1 (broadcastInDim S100000x16 ![] bcast_S_S100000x16 (constant S_ .f32 0x00000000#32)) (column t) (mulf (broadcastInDim S1700000x16 ![0, 1] bcast_S1700000x1_S1700000x16_0_1 (column n)) (Host.gather gather_S100000x16_S1700000x1_S1700000x16_1_0_n_n_0_1_116 h (column (wrapped s))))) (broadcastInDim S100000x16 ![0, 1] bcast_S1x16_S100000x16_0_1 (broadcastInDim S1x16 ![1] bcast_S16_S1x16_1 b))

variable (W : Valuation τ sig (Elt F))

/-! ## The stretch before the first product: edge lists and coefficients -/

theorem lead_sources : after hostOps0_2 (after hostOps0_1 (after hostOps0 W)) (Proc.devRef .tc main_v5) = sources (W (Proc.devRef .tc main_arg1)) := by
  after_results_simp <;> rfl

theorem lead_targets : after hostOps0_2 (after hostOps0_1 (after hostOps0 W)) (Proc.devRef .tc main_v6) = targets (W (Proc.devRef .tc main_arg1)) := by
  after_results_simp <;> rfl

theorem lead_coefficients : after hostOps0_2 (after hostOps0_1 (after hostOps0 W)) (Proc.devRef .tc main_v32)
    = coefficients (sources (W (Proc.devRef .tc main_arg1))) (targets (W (Proc.devRef .tc main_arg1))) (weights (W (Proc.devRef .tc main_arg2))) := by
  after_results_simp <;> rfl

/-- The stretch writes none of the argument arrays it will be asked about later. -/
theorem lead_keeps_arg0 : after hostOps0_2 (after hostOps0_1 (after hostOps0 W)) (Proc.devRef .tc main_arg0) = W (Proc.devRef .tc main_arg0) := by
  after_results_simp <;> rfl
theorem lead_keeps_arg3 : after hostOps0_2 (after hostOps0_1 (after hostOps0 W)) (Proc.devRef .tc main_arg3) = W (Proc.devRef .tc main_arg3) := by
  after_results_simp <;> rfl
theorem lead_keeps_arg4 : after hostOps0_2 (after hostOps0_1 (after hostOps0 W)) (Proc.devRef .tc main_arg4) = W (Proc.devRef .tc main_arg4) := by
  after_results_simp <;> rfl
theorem lead_keeps_arg5 : after hostOps0_2 (after hostOps0_1 (after hostOps0 W)) (Proc.devRef .tc main_arg5) = W (Proc.devRef .tc main_arg5) := by
  after_results_simp <;> rfl
theorem lead_keeps_arg6 : after hostOps0_2 (after hostOps0_1 (after hostOps0 W)) (Proc.devRef .tc main_arg6) = W (Proc.devRef .tc main_arg6) := by
  after_results_simp <;> rfl

/-! ## The stretch between the two products: the first layer's aggregation, bias and rectifier -/

theorem middle_hidden : after hostOps1_1 (after hostOps1 W) (Proc.devRef .tc main_v50)
    = hidden (W (Proc.devRef .tc main_v33)) (W (Proc.devRef .tc main_v5)) (W (Proc.devRef .tc main_v6)) (W (Proc.devRef .tc main_v32)) (W (Proc.devRef .tc main_arg4)) := by
  after_results_simp <;> rfl

theorem middle_keeps_v5 : after hostOps1_1 (after hostOps1 W) (Proc.devRef .tc main_v5) = W (Proc.devRef .tc main_v5) := by
  after_results_simp <;> rfl
theorem middle_keeps_v6 : after hostOps1_1 (after hostOps1 W) (Proc.devRef .tc main_v6) = W (Proc.devRef .tc main_v6) := by
  after_results_simp <;> rfl
theorem middle_keeps_v32 : after hostOps1_1 (after hostOps1 W) (Proc.devRef .tc main_v32) = W (Proc.devRef .tc main_v32) := by
  after_results_simp <;> rfl
theorem middle_keeps_arg5 : after hostOps1_1 (after hostOps1 W) (Proc.devRef .tc main_arg5) = W (Proc.devRef .tc main_arg5) := by
  after_results_simp <;> rfl
theorem middle_keeps_arg6 : after hostOps1_1 (after hostOps1 W) (Proc.devRef .tc main_arg6) = W (Proc.devRef .tc main_arg6) := by
  after_results_simp <;> rfl

/-! ## The stretch after the second product: the second layer's aggregation and bias -/

theorem last_output : after hostOps2 W (Proc.devRef .tc main_v67)
    = output (W (Proc.devRef .tc main_v51)) (W (Proc.devRef .tc main_v5)) (W (Proc.devRef .tc main_v6)) (W (Proc.devRef .tc main_v32)) (W (Proc.devRef .tc main_arg6)) := by
  after_results_simp <;> rfl

end Cert.KernelIdeal.Layers

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.LibHostDot.lean ====
/-
  The host's product of two matrices, read entry by entry.

  On the extended reals the host's `dot_general` of an [a, K] matrix with a [K, b] matrix that contracts the left
  operand's axis 1 with the right operand's axis 0 has at entry (p, q) the value  ∑ k < K, lhs (p, k) · rhs (k, q).

  The host's product and the matrix unit's product into the zero accumulator are, entry by entry, the same sum over
  the contracted positions (the accumulator's zero adds nothing), for any dimension numbers and any extents; the
  entry-by-entry reading of the matrix unit's product then carries over word for word. No finiteness is used: the
  two sides are the same sum of the same terms.
-/
import Idealize.ShloMosaic.PureOps.Ideal.Laws
import Idealize.ShloMosaic.Lib.ValueIdx
import proofs.«134421_j59931973648925_1_alg».proof.Proof.LibPlainDot

noncomputable section

namespace Idealize.ShloMosaic.HostDot

open Idealize.ShloMosaic Idealize.ShloMosaic.ValueIdx

/-- At every output index the host's product is the matrix unit's product into the zero accumulator: both are the
    sum, over the contracted positions, of the left operand's entry times the right operand's entry. -/
theorem dotGeneral_eq_matmul_zero {sl sr so : Shape} {φ₁ φ₂ : FTy} (d : DotDims sl sr so)
    (prec prec' : Option ContractPrecision) (sched : HostSchedule)
    (lhs : FVec Ideal sl φ₁) (rhs : FVec Ideal sr φ₂) (j : so.Idx) :
    FloatOps.dotGeneral d prec sched lhs rhs j
      = FloatOps.matmul d prec' lhs rhs (constant so .f32 0x00000000#32) j :=
  (Ideal.dotGeneral_apply d prec sched lhs rhs j).trans (Ideal.matmul_constant_zero_apply d prec' lhs rhs j).symm

/-- Entry (p, q) of the host's [a, K] × [K, b] product is the sum over the contracted position of the row's entry
    times the column's entry. The four facts about the dimension numbers are decided by unfolding for a literal
    record. -/
theorem dotGeneral_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision) (sched : HostSchedule)
    (lhs : FVec Ideal (⟨2, ![a, K]⟩ : Shape) φ₁) (rhs : FVec Ideal (⟨2, ![K, b]⟩ : Shape) φ₂) (p : Fin a) (q : Fin b) :
    FloatOps.dotGeneral d prec sched lhs rhs (ix2 p q) = ∑ k : Fin K, lhs (ix2 p k) * rhs (ix2 k q) :=
  (dotGeneral_eq_matmul_zero d prec prec sched lhs rhs (ix2 p q)).trans
    (PlainDot.matmul_zero_ix2 d hr hs hlc hrc hl0 hr1 prec lhs rhs p q)

end Idealize.ShloMosaic.HostDot

end
-- ==== Proof.Panels.lean ====
/-
  The two dense projections on the matrix unit, read as whole products.

  Each projection runs over 25 grid points; point t takes rows 4000·t … 4000·t + 3999 of the activations (a row
  panel), the whole weight matrix, and writes the panel's product into the same rows of the result. An entry of a
  panel's product is  ∑ k, panel (p, k) · weight (k, q)  on the extended reals: rounding the operands to a shorter float
  format changes nothing there, and the accumulator starts at zero. That is entry (4000·t + p, q) of the host's
  matrix product of the whole arrays, the same sum of the same terms. The 25 panels tile the rows of the result, so
  after the last point the result array is the host's product of the two arrays the projection started from.
  No finiteness is used.
-/
import proofs.«134421_j59931973648925_1_alg».proof.Proof.Gen.KernelIdeal.Frame
import proofs.«134421_j59931973648925_1_alg».proof.Proof.Gen.ReferenceIdeal.Read
import proofs.«134421_j59931973648925_1_alg».proof.Proof.LibPlainDot
import proofs.«134421_j59931973648925_1_alg».proof.Proof.LibHostDot
import Idealize.ShloMosaic.Lib.Pipeline.Value
import Idealize.ShloMosaic.Lib.ValueIdx

set_option maxRecDepth 16384

noncomputable section

namespace Cert.KernelIdeal.Panels

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first projection: [100000, 256] × [256, 32] -/

/-- The host's product of the whole arrays. -/
abbrev product0 (x : FVec Ideal S100000x256 .f32) (w : FVec Ideal S256x32 .f32) : FVec Ideal S100000x32 .f32 :=
  Host.dotGeneral Cert.ReferenceIdeal.dot_S100000x256_S256x32_S100000x32_1_0_0_1_n_n none x w

/-- Its entry (r, q) is the sum over k of x (r, k) · w (k, q). -/
theorem product0_apply (x : FVec Ideal S100000x256 .f32) (w : FVec Ideal S256x32 .f32) (r : Fin 100000) (q : Fin 32) :
    product0 x w (ix2 r q) = ∑ k : Fin 256, x (ix2 r k) * w (ix2 k q) :=
  HostDot.dotGeneral_ix2 Cert.ReferenceIdeal.dot_S100000x256_S256x32_S100000x32_1_0_0_1_n_n rfl rfl rfl rfl
    (fun j q => Cert.ReferenceIdeal.Read.lhs_main_v33_0 j q) (fun j q => Cert.ReferenceIdeal.Read.rhs_main_v33_1 j q)
    none .single x w r q

theorem dot0_row (j : S4000x32.Idx) (q : dot_S4000x256_S256x32_S4000x32_1_0_0_1_n_n.contr.Idx) :
    (dot_S4000x256_S256x32_S4000x32_1_0_0_1_n_n.lhsIdx j q 0).val = (j 0).val := by
  unfold DotDims.lhsIdx
  rw [dif_neg (show ¬(0 : Fin S4000x256.rank) ∈ dot_S4000x256_S256x32_S4000x32_1_0_0_1_n_n.lhsBatch by decide), dif_pos (show (0 : Fin S4000x256.rank) ∈ dot_S4000x256_S256x32_S4000x32_1_0_0_1_n_n.lhsNonContracting by decide)]
  rfl
theorem dot0_col (j : S4000x32.Idx) (q : dot_S4000x256_S256x32_S4000x32_1_0_0_1_n_n.contr.Idx) :
    (dot_S4000x256_S256x32_S4000x32_1_0_0_1_n_n.rhsIdx j q 1).val = (j 1).val := by
  unfold DotDims.rhsIdx
  rw [dif_neg (show ¬(1 : Fin S256x32.rank) ∈ dot_S4000x256_S256x32_S4000x32_1_0_0_1_n_n.rhsBatch by decide), dif_pos (show (1 : Fin S256x32.rank) ∈ dot_S4000x256_S256x32_S4000x32_1_0_0_1_n_n.rhsNonContracting by decide)]
  rfl

/-- Entry (p, q) of one panel's product. -/
theorem panel0 (x0 : Vec Ideal S4000x256 .f32) (x1 : Vec Ideal S256x32 .f32) (p : Fin 4000) (q : Fin 32) :
    k0_pay1 x0 x1 (ix2 p q) = ∑ k : Fin 256, x0 (ix2 p k) * x1 (ix2 k q) :=
  PlainDot.matmul_zero_ix2 dot_S4000x256_S256x32_S4000x32_1_0_0_1_n_n rfl rfl rfl rfl dot0_row dot0_col none x0 x1 p q

/-- A panel's product is the rows of the whole product that the panel's rows are. -/
theorem panel0_entry (X : FVec Ideal S100000x256 .f32) (Wt : FVec Ideal S256x32 .f32)
    (x0 : Vec Ideal S4000x256 .f32) (x1 : Vec Ideal S256x32 .f32) (n : ℕ) (hn : n < 25)
    (hx0 : ∀ (p : Fin 4000) (k : Fin 256), x0 (ix2 p k) = X (ix2 (⟨n * 4000 + p.val, by omega⟩ : Fin 100000) k))
    (hx1 : ∀ (k : Fin 256) (q : Fin 32), x1 (ix2 k q) = Wt (ix2 k q))
    (p : Fin 4000) (q : Fin 32) :
    k0_pay1 x0 x1 (ix2 p q) = product0 X Wt (ix2 (⟨n * 4000 + p.val, by omega⟩ : Fin 100000) q) := by
  rw [panel0, product0_apply]
  exact Finset.sum_congr rfl fun k _ => by rw [hx0, hx1]

/-- Where each window's block sits at point t: the activations' and the result's blocks at row block t, the weight's at
    the origin. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the projection started from. -/
theorem flushed0_eq (c : Dev nD) (t : Fin cfg0.N) :
    (dat0 V c).flushed 2 t = ((cfg0.win 2).blk t).view.read (Elt Ideal) (product0 (V c main_arg0) (V c main_arg3)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x32) hz]
  obtain ⟨e00, e01, e10, e11, e20, e21⟩ := index_facts0 t
  have ht : t.val < 25 := by have h1 := t.isLt; have h2 : cfg0.N = 25 := N_0; omega
  have hx0 : ∀ (p : Fin 4000) (k : Fin 256), (iblk0 V c 0 t : Vec Ideal S4000x256 .f32) (ix2 p k)
      = (V c main_arg0 : FVec Ideal S100000x256 .f32) (ix2 (⟨t.val * 4000 + p.val, by omega⟩ : Fin 100000) k) := by
    intro p k
    unfold iblk0
    rw [View.read_apply]
    show V c main_arg0 _ = V c main_arg0 _
    refine congrArg (V c main_arg0) ?_
    funext a; apply Fin.ext
    match a with
    | ⟨0, _⟩ => show win0_0.index t (0 : Fin 2) * 4000 + 1 * p.val = t.val * 4000 + p.val; rw [e00]; omega
    | ⟨1, _⟩ => show win0_0.index t (1 : Fin 2) * 256 + 1 * k.val = k.val; rw [e01]; omega
  have hx1 : ∀ (k : Fin 256) (q : Fin 32), (iblk0 V c 1 t : Vec Ideal S256x32 .f32) (ix2 k q)
      = (V c main_arg3 : FVec Ideal S256x32 .f32) (ix2 k q) := by
    intro k q
    unfold iblk0
    rw [View.read_apply]
    show V c main_arg3 _ = V c main_arg3 _
    refine congrArg (V c main_arg3) ?_
    funext a; apply Fin.ext
    match a with
    | ⟨0, _⟩ => show win0_1.index t (0 : Fin 2) * 256 + 1 * k.val = k.val; rw [e10]; omega
    | ⟨1, _⟩ => show win0_1.index t (1 : Fin 2) * 32 + 1 * q.val = q.val; rw [e11]; omega
  funext j
  have hfin := panel0_entry (V c main_arg0) (V c main_arg3) (iblk0 V c 0 t) (iblk0 V c 1 t) t.val ht hx0 hx1 (j 0) (j 1)
  have hj : (j : S4000x32.Idx) = ix2 (j 0) (j 1) := eq_ix2 (n0 := 4000) (n1 := 32) j
  show k0_pay1 (iblk0 V c 0 t) (iblk0 V c 1 t) j = _
  refine (congrArg (k0_pay1 (iblk0 V c 0 t) (iblk0 V c 1 t)) hj).trans (hfin.trans ?_)
  rw [View.read_apply]
  refine congrArg (product0 (V c main_arg0) (V c main_arg3)) ?_
  funext a; apply Fin.ext
  match a with
  | ⟨0, _⟩ => show t.val * 4000 + (j 0).val = win0_2.index t (0 : Fin 2) * 4000 + 1 * (j 0).val; rw [e20]; omega
  | ⟨1, _⟩ => show (j 1).val = win0_2.index t (1 : Fin 2) * 32 + 1 * (j 1).val; rw [e21]; omega

/-- An index of the result lies in point t's block iff each coordinate lies in the block's range on its axis. -/
theorem mem_block0 (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v33).slice (win0_2.rect t)).set ↔ _
  rw [View.set_slice_whole, Rect.mem_set_unit]
  exact Iff.rfl

/-- After the last point the result array is the whole product: row r lies in the block of point r / 4000. -/
theorem final0 (c : Dev nD) : (dat0 V c).arrAt 2 cfg0.N = product0 (V c main_arg0) (V c main_arg3) :=
  (dat0 V c).arrAt_eq_of_cover 2 (product0 (V c main_arg0) (V c main_arg3)) (fun t _ => flushed0_eq V c t) fun i => by
    have hi0 : (i 0).val < 100000 := (i 0).isLt
    have hi1 : (i 1).val < 32 := (i 1).isLt
    have hN : cfg0.N = 25 := N_0
    obtain ⟨t, ht⟩ : ∃ t : Fin cfg0.N, t.val = (i 0).val / 4000 := ⟨⟨(i 0).val / 4000, by omega⟩, rfl⟩
    obtain ⟨e00, e01, e10, e11, e20, e21⟩ := index_facts0 t
    refine ⟨t, flush0_2 t, ?_⟩
    rw [mem_block0]
    intro a
    match a with
    | ⟨0, _⟩ => show win0_2.index t (0 : Fin 2) * 4000 ≤ (i 0).val ∧ (i 0).val < win0_2.index t (0 : Fin 2) * 4000 + 4000; rw [e20, ht]; omega
    | ⟨1, _⟩ => show win0_2.index t (1 : Fin 2) * 32 ≤ (i 1).val ∧ (i 1).val < win0_2.index t (1 : Fin 2) * 32 + 32; rw [e21]; omega

/-! ## The second projection: [100000, 32] × [32, 16] -/

/-- The host's product of the whole arrays. -/
abbrev product1 (x : FVec Ideal S100000x32 .f32) (w : FVec Ideal S32x16 .f32) : FVec Ideal S100000x16 .f32 :=
  Host.dotGeneral Cert.ReferenceIdeal.dot_S100000x32_S32x16_S100000x16_1_0_0_1_n_n none x w

/-- Its entry (r, q) is the sum over k of x (r, k) · w (k, q). -/
theorem product1_apply (x : FVec Ideal S100000x32 .f32) (w : FVec Ideal S32x16 .f32) (r : Fin 100000) (q : Fin 16) :
    product1 x w (ix2 r q) = ∑ k : Fin 32, x (ix2 r k) * w (ix2 k q) :=
  HostDot.dotGeneral_ix2 Cert.ReferenceIdeal.dot_S100000x32_S32x16_S100000x16_1_0_0_1_n_n rfl rfl rfl rfl
    (fun j q => Cert.ReferenceIdeal.Read.lhs_main_v51_0 j q) (fun j q => Cert.ReferenceIdeal.Read.rhs_main_v51_1 j q)
    none .single x w r q

theorem dot1_row (j : S4000x16.Idx) (q : dot_S4000x32_S32x16_S4000x16_1_0_0_1_n_n.contr.Idx) :
    (dot_S4000x32_S32x16_S4000x16_1_0_0_1_n_n.lhsIdx j q 0).val = (j 0).val := by
  unfold DotDims.lhsIdx
  rw [dif_neg (show ¬(0 : Fin S4000x32.rank) ∈ dot_S4000x32_S32x16_S4000x16_1_0_0_1_n_n.lhsBatch by decide), dif_pos (show (0 : Fin S4000x32.rank) ∈ dot_S4000x32_S32x16_S4000x16_1_0_0_1_n_n.lhsNonContracting by decide)]
  rfl
theorem dot1_col (j : S4000x16.Idx) (q : dot_S4000x32_S32x16_S4000x16_1_0_0_1_n_n.contr.Idx) :
    (dot_S4000x32_S32x16_S4000x16_1_0_0_1_n_n.rhsIdx j q 1).val = (j 1).val := by
  unfold DotDims.rhsIdx
  rw [dif_neg (show ¬(1 : Fin S32x16.rank) ∈ dot_S4000x32_S32x16_S4000x16_1_0_0_1_n_n.rhsBatch by decide), dif_pos (show (1 : Fin S32x16.rank) ∈ dot_S4000x32_S32x16_S4000x16_1_0_0_1_n_n.rhsNonContracting by decide)]
  rfl

/-- The body's value is the panel's product into the zero accumulator: the cast to the same shape and the rounding of
    the operands are the identity on the extended reals. -/
theorem pay1_eq (x0 : Vec Ideal S4000x32 .f32) (x1 : Vec Ideal S32x16 .f32) :
    k1_pay1 x0 x1 = FloatOps.matmul (φ₁ := .bf16) (φ₂ := .bf16) dot_S4000x32_S32x16_S4000x16_1_0_0_1_n_n none x0 x1 (constant S4000x16 .f32 0x00000000#32) := by
  unfold k1_pay1
  simp only [shapeCast_self]
  rfl

/-- Entry (p, q) of one panel's product. -/
theorem panel1 (x0 : Vec Ideal S4000x32 .f32) (x1 : Vec Ideal S32x16 .f32) (p : Fin 4000) (q : Fin 16) :
    k1_pay1 x0 x1 (ix2 p q) = ∑ k : Fin 32, x0 (ix2 p k) * x1 (ix2 k q) := by
  rw [pay1_eq]
  exact PlainDot.matmul_zero_ix2 dot_S4000x32_S32x16_S4000x16_1_0_0_1_n_n rfl rfl rfl rfl dot1_row dot1_col none x0 x1 p q

/-- A panel's product is the rows of the whole product that the panel's rows are. -/
theorem panel1_entry (X : FVec Ideal S100000x32 .f32) (Wt : FVec Ideal S32x16 .f32)
    (x0 : Vec Ideal S4000x32 .f32) (x1 : Vec Ideal S32x16 .f32) (n : ℕ) (hn : n < 25)
    (hx0 : ∀ (p : Fin 4000) (k : Fin 32), x0 (ix2 p k) = X (ix2 (⟨n * 4000 + p.val, by omega⟩ : Fin 100000) k))
    (hx1 : ∀ (k : Fin 32) (q : Fin 16), x1 (ix2 k q) = Wt (ix2 k q))
    (p : Fin 4000) (q : Fin 16) :
    k1_pay1 x0 x1 (ix2 p q) = product1 X Wt (ix2 (⟨n * 4000 + p.val, by omega⟩ : Fin 100000) q) := by
  rw [panel1, product1_apply]
  exact Finset.sum_congr rfl fun k _ => by rw [hx0, hx1]

/-- Where each window's block sits at point t. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays the projection started from. -/
theorem flushed1_eq (c : Dev nD) (t : Fin cfg1.N) :
    (dat1 V c).flushed 2 t = ((cfg1.win 2).blk t).view.read (Elt Ideal) (product1 (V c main_v50) (V c main_arg5)) := by
  show (cfg1.win 2).cut (grid1.coords t) ((dat1 V c).after 2 t) = _
  rw [after1_2]
  unfold out1_2
  rw [View.canon_unit_zero hz]
  simp only [View.ld_unit_zero (S := S4000x32) hz, View.ld_unit_zero (S := S32x16) hz]
  obtain ⟨e00, e01, e10, e11, e20, e21⟩ := index_facts1 t
  have ht : t.val < 25 := by have h1 := t.isLt; have h2 : cfg1.N = 25 := N_1; omega
  have hx0 : ∀ (p : Fin 4000) (k : Fin 32), (iblk1 V c 0 t : Vec Ideal S4000x32 .f32) (ix2 p k)
      = (V c main_v50 : FVec Ideal S100000x32 .f32) (ix2 (⟨t.val * 4000 + p.val, by omega⟩ : Fin 100000) k) := by
    intro p k
    unfold iblk1
    rw [View.read_apply]
    show V c main_v50 _ = V c main_v50 _
    refine congrArg (V c main_v50) ?_
    funext a; apply Fin.ext
    match a with
    | ⟨0, _⟩ => show win1_0.index t (0 : Fin 2) * 4000 + 1 * p.val = t.val * 4000 + p.val; rw [e00]; omega
    | ⟨1, _⟩ => show win1_0.index t (1 : Fin 2) * 32 + 1 * k.val = k.val; rw [e01]; omega
  have hx1 : ∀ (k : Fin 32) (q : Fin 16), (iblk1 V c 1 t : Vec Ideal S32x16 .f32) (ix2 k q)
      = (V c main_arg5 : FVec Ideal S32x16 .f32) (ix2 k q) := by
    intro k q
    unfold iblk1
    rw [View.read_apply]
    show V c main_arg5 _ = V c main_arg5 _
    refine congrArg (V c main_arg5) ?_
    funext a; apply Fin.ext
    match a with
    | ⟨0, _⟩ => show win1_1.index t (0 : Fin 2) * 32 + 1 * k.val = k.val; rw [e10]; omega
    | ⟨1, _⟩ => show win1_1.index t (1 : Fin 2) * 16 + 1 * q.val = q.val; rw [e11]; omega
  funext j
  have hfin := panel1_entry (V c main_v50) (V c main_arg5) (iblk1 V c 0 t) (iblk1 V c 1 t) t.val ht hx0 hx1 (j 0) (j 1)
  have hj : (j : S4000x16.Idx) = ix2 (j 0) (j 1) := eq_ix2 (n0 := 4000) (n1 := 16) j
  show k1_pay1 (iblk1 V c 0 t) (iblk1 V c 1 t) j = _
  refine (congrArg (k1_pay1 (iblk1 V c 0 t) (iblk1 V c 1 t)) hj).trans (hfin.trans ?_)
  rw [View.read_apply]
  refine congrArg (product1 (V c main_v50) (V c main_arg5)) ?_
  funext a; apply Fin.ext
  match a with
  | ⟨0, _⟩ => show t.val * 4000 + (j 0).val = win1_2.index t (0 : Fin 2) * 4000 + 1 * (j 0).val; rw [e20]; omega
  | ⟨1, _⟩ => show (j 1).val = win1_2.index t (1 : Fin 2) * 16 + 1 * (j 1).val; rw [e21]; omega

/-- An index of the result lies in point t's block iff each coordinate lies in the block's range on its axis. -/
theorem mem_block1 (t : Fin cfg1.N) (i : S100000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v51).slice (win1_2.rect t)).set ↔ _
  rw [View.set_slice_whole, Rect.mem_set_unit]
  exact Iff.rfl

/-- After the last point the result array is the whole product: row r lies in the block of point r / 4000. -/
theorem final1 (c : Dev nD) : (dat1 V c).arrAt 2 cfg1.N = product1 (V c main_v50) (V c main_arg5) :=
  (dat1 V c).arrAt_eq_of_cover 2 (product1 (V c main_v50) (V c main_arg5)) (fun t _ => flushed1_eq V c t) fun i => by
    have hi0 : (i 0).val < 100000 := (i 0).isLt
    have hi1 : (i 1).val < 16 := (i 1).isLt
    have hN : cfg1.N = 25 := N_1
    obtain ⟨t, ht⟩ : ∃ t : Fin cfg1.N, t.val = (i 0).val / 4000 := ⟨⟨(i 0).val / 4000, by omega⟩, rfl⟩
    obtain ⟨e00, e01, e10, e11, e20, e21⟩ := index_facts1 t
    refine ⟨t, flush1_2 t, ?_⟩
    rw [mem_block1]
    intro a
    match a with
    | ⟨0, _⟩ => show win1_2.index t (0 : Fin 2) * 4000 ≤ (i 0).val ∧ (i 0).val < win1_2.index t (0 : Fin 2) * 4000 + 4000; rw [e20, ht]; omega
    | ⟨1, _⟩ => show win1_2.index t (1 : Fin 2) * 16 ≤ (i 1).val ∧ (i 1).val < win1_2.index t (1 : Fin 2) * 16 + 16; rw [e21]; omega

end Cert.KernelIdeal.Panels

end
-- ==== Proof.Forward.lean ====
/-
  The value of the idealized kernel program's result buffer, as one function of the seven argument arrays.

  Walking the boundary contents forward from the launch: the stretch before the first projection leaves the sources,
  targets and coefficients of the 1 700 000 edges; the first projection leaves the product x·W₁ (its 25 row panels
  tile the result); the next stretch leaves the first layer's output max(A·(x·W₁) + b₁, 0), where A adds the scaled rows
  along the edges; the second projection leaves that array times W₂; the last stretch leaves A·(h·W₂) + b₂. A buffer
  that a segment does not write keeps its contents across it, so the edge arrays computed at the start are the ones
  every later stretch reads.
-/
import proofs.«134421_j59931973648925_1_alg».proof.Proof.Gen.KernelIdeal.Frame
import proofs.«134421_j59931973648925_1_alg».proof.Proof.Layers
import proofs.«134421_j59931973648925_1_alg».proof.Proof.Panels

set_option maxRecDepth 16384

noncomputable section

namespace Cert.KernelIdeal.Forward

open Cert.KernelIdeal Cert.KernelIdeal.Gen Cert.KernelIdeal.Layers Cert.KernelIdeal.Panels
open Idealize.ShloMosaic Idealize.ShloMosaic.TcCoe Idealize.SL.Sem Idealize.ShloMosaic.StableHlo

/-- The two-layer network on the extended reals: both projections as the host's products, the aggregation along the
    edges with the symmetric normalisation, the biases, and the rectifier between the layers. -/
def forward (x : FVec Ideal S100000x256 .f32) (e : IVec S2x1600000 32) (w : FVec Ideal S1600000 .f32)
    (w1 : FVec Ideal S256x32 .f32) (b1 : FVec Ideal S32 .f32) (w2 : FVec Ideal S32x16 .f32) (b2 : FVec Ideal S16 .f32) :
    FVec Ideal S100000x16 .f32 :=
  output (product1 (hidden (product0 x w1) (sources e) (targets e) (coefficients (sources e) (targets e) (weights w)) b1) w2)
    (sources e) (targets e) (coefficients (sources e) (targets e) (weights w)) b2

variable (m : (ℓ : Loc nD τ sig) → Buf (Elt Ideal) ℓ) (ρ : Dev nD → PrngReg) (c : Dev nD)

/-- The argument arrays as launched. -/
abbrev inX : FVec Ideal S100000x256 .f32 := m ((c : Thread nD τ).loc main_arg0)
abbrev inE : IVec S2x1600000 32 := m ((c : Thread nD τ).loc main_arg1)
abbrev inW : FVec Ideal S1600000 .f32 := m ((c : Thread nD τ).loc main_arg2)
abbrev inW1 : FVec Ideal S256x32 .f32 := m ((c : Thread nD τ).loc main_arg3)
abbrev inB1 : FVec Ideal S32 .f32 := m ((c : Thread nD τ).loc main_arg4)
abbrev inW2 : FVec Ideal S32x16 .f32 := m ((c : Thread nD τ).loc main_arg5)
abbrev inB2 : FVec Ideal S16 .f32 := m ((c : Thread nD τ).loc main_arg6)

/-- The edge coefficients of the launched graph. -/
def coefs : FVec Ideal S1700000 .f32 :=
  coefficients (sources (inE m c)) (targets (inE m c)) (weights (inW m c))

/-- The first layer's output. -/
def firstLayer : FVec Ideal S100000x32 .f32 :=
  hidden (product0 (inX m c) (inW1 m c)) (sources (inE m c)) (targets (inE m c)) (coefs m c) (inB1 m c)

/-! ## Entering the first projection -/

theorem at3_v5 : W3 m ρ c (Proc.devRef .tc main_v5) = sources (inE m c) := lead_sources (W0 m ρ c)
theorem at3_v6 : W3 m ρ c (Proc.devRef .tc main_v6) = targets (inE m c) := lead_targets (W0 m ρ c)
theorem at3_v32 : W3 m ρ c (Proc.devRef .tc main_v32) = coefs m c := lead_coefficients (W0 m ρ c)
theorem at3_arg0 : W3 m ρ c (Proc.devRef .tc main_arg0) = inX m c := lead_keeps_arg0 (W0 m ρ c)
theorem at3_arg3 : W3 m ρ c (Proc.devRef .tc main_arg3) = inW1 m c := lead_keeps_arg3 (W0 m ρ c)
theorem at3_arg4 : W3 m ρ c (Proc.devRef .tc main_arg4) = inB1 m c := lead_keeps_arg4 (W0 m ρ c)
theorem at3_arg5 : W3 m ρ c (Proc.devRef .tc main_arg5) = inW2 m c := lead_keeps_arg5 (W0 m ρ c)
theorem at3_arg6 : W3 m ρ c (Proc.devRef .tc main_arg6) = inB2 m c := lead_keeps_arg6 (W0 m ρ c)

/-! ## Leaving the first projection -/

theorem at4_v33 : W4 m ρ c (Proc.devRef .tc main_v33) = product0 (inX m c) (inW1 m c) := by
  refine (W4_arr m ρ c 2).trans ((final0 (V3 m ρ) c).trans ?_)
  show product0 (W3 m ρ c (Proc.devRef .tc main_arg0)) (W3 m ρ c (Proc.devRef .tc main_arg3)) = _
  rw [at3_arg0, at3_arg3]
theorem at4_v5 : W4 m ρ c (Proc.devRef .tc main_v5) = sources (inE m c) := (W4_of_ne m ρ c main_v5 (by decide)).trans (at3_v5 m ρ c)
theorem at4_v6 : W4 m ρ c (Proc.devRef .tc main_v6) = targets (inE m c) := (W4_of_ne m ρ c main_v6 (by decide)).trans (at3_v6 m ρ c)
theorem at4_v32 : W4 m ρ c (Proc.devRef .tc main_v32) = coefs m c := (W4_of_ne m ρ c main_v32 (by decide)).trans (at3_v32 m ρ c)
theorem at4_arg4 : W4 m ρ c (Proc.devRef .tc main_arg4) = inB1 m c := (W4_of_ne m ρ c main_arg4 (by decide)).trans (at3_arg4 m ρ c)
theorem at4_arg5 : W4 m ρ c (Proc.devRef .tc main_arg5) = inW2 m c := (W4_of_ne m ρ c main_arg5 (by decide)).trans (at3_arg5 m ρ c)
theorem at4_arg6 : W4 m ρ c (Proc.devRef .tc main_arg6) = inB2 m c := (W4_of_ne m ρ c main_arg6 (by decide)).trans (at3_arg6 m ρ c)

/-! ## Entering the second projection -/

theorem at6_v50 : W6 m ρ c (Proc.devRef .tc main_v50) = firstLayer m c := by
  refine (middle_hidden (W4 m ρ c)).trans ?_
  rw [at4_v33, at4_v5, at4_v6, at4_v32, at4_arg4]
  rfl
theorem at6_v5 : W6 m ρ c (Proc.devRef .tc main_v5) = sources (inE m c) := (middle_keeps_v5 (W4 m ρ c)).trans (at4_v5 m ρ c)
theorem at6_v6 : W6 m ρ c (Proc.devRef .tc main_v6) = targets (inE m c) := (middle_keeps_v6 (W4 m ρ c)).trans (at4_v6 m ρ c)
theorem at6_v32 : W6 m ρ c (Proc.devRef .tc main_v32) = coefs m c := (middle_keeps_v32 (W4 m ρ c)).trans (at4_v32 m ρ c)
theorem at6_arg5 : W6 m ρ c (Proc.devRef .tc main_arg5) = inW2 m c := (middle_keeps_arg5 (W4 m ρ c)).trans (at4_arg5 m ρ c)
theorem at6_arg6 : W6 m ρ c (Proc.devRef .tc main_arg6) = inB2 m c := (middle_keeps_arg6 (W4 m ρ c)).trans (at4_arg6 m ρ c)

/-! ## Leaving the second projection -/

theorem at7_v51 : W7 m ρ c (Proc.devRef .tc main_v51) = product1 (firstLayer m c) (inW2 m c) := by
  refine (W7_arr m ρ c 2).trans ((final1 (V6 m ρ) c).trans ?_)
  show product1 (W6 m ρ c (Proc.devRef .tc main_v50)) (W6 m ρ c (Proc.devRef .tc main_arg5)) = _
  rw [at6_v50, at6_arg5]
theorem at7_v5 : W7 m ρ c (Proc.devRef .tc main_v5) = sources (inE m c) := (W7_of_ne m ρ c main_v5 (by decide)).trans (at6_v5 m ρ c)
theorem at7_v6 : W7 m ρ c (Proc.devRef .tc main_v6) = targets (inE m c) := (W7_of_ne m ρ c main_v6 (by decide)).trans (at6_v6 m ρ c)
theorem at7_v32 : W7 m ρ c (Proc.devRef .tc main_v32) = coefs m c := (W7_of_ne m ρ c main_v32 (by decide)).trans (at6_v32 m ρ c)
theorem at7_arg6 : W7 m ρ c (Proc.devRef .tc main_arg6) = inB2 m c := (W7_of_ne m ρ c main_arg6 (by decide)).trans (at6_arg6 m ρ c)

/-! ## The result -/

/-- When the program returns, the result buffer holds the network's value at the argument arrays as launched. -/
theorem result_value : W8 m ρ c (Proc.devRef .tc main_v67)
    = forward (inX m c) (inE m c) (inW m c) (inW1 m c) (inB1 m c) (inW2 m c) (inB2 m c) := by
  refine (last_output (W7 m ρ c)).trans ?_
  rw [at7_v51, at7_v5, at7_v6, at7_v32, at7_arg6]
  rfl

end Cert.KernelIdeal.Forward

end
-- ==== Proof.Agreement.lean ====
/-
  The reference program computes the same function.

  The reference is the same chain of host operations with the host's own matrix product in place of each projection
  on the matrix unit. Its result, written out as one term of the argument arrays, is therefore the network's value
  `forward` at those arrays: the edge lists, degrees, coefficients, gathers, scatters, biases and the rectifier are
  the very same operations, and the two products are the host's products that the row panels of the kernel were shown
  to tile. The two sides are one term; nothing is computed.
-/
import proofs.«134421_j59931973648925_1_alg».proof.Proof.Forward
import proofs.«134421_j59931973648925_1_alg».proof.Proof.Gen.ReferenceIdeal.Run

set_option maxRecDepth 16384

noncomputable section

namespace Cert.ReferenceIdeal.Agreement

open Idealize.ShloMosaic Idealize.ShloMosaic.TcCoe Idealize.SL.Sem
open Cert.KernelIdeal.Forward Cert.KernelIdeal.Layers Cert.KernelIdeal.Panels

set_option maxHeartbeats 4000000 in
/-- The reference's result term is the network's value at the reference's argument arrays. -/
theorem reference_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v67 (F := Ideal) m c
      = forward (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold Cert.ReferenceIdeal.Value.res_main_v67
  rfl

end Cert.ReferenceIdeal.Agreement

end
-- ==== Proof.lean ====
/-
  A two-layer graph convolution: the kernel program against its plain reference, on the extended reals.

  Both programs compute, for node features x, a weighted edge list and parameters W₁, b₁, W₂, b₂,

      out = A · (max(A · (x · W₁) + b₁, 0) · W₂) + b₂ ,

  where A adds, for every edge s → t (self loops included), the row of node s scaled by d(s) · w · d(t) into the row
  of node t, and d = deg^(-1/2) where the weighted in-degree is positive, zero elsewhere. The programs differ only in
  the two dense projections: the kernel runs each on the matrix unit in 25 row panels of 4000 rows with its operands
  rounded to a shorter float format and a zero accumulator; the reference takes the host's matrix product of the whole
  arrays. On the extended reals the rounding is the identity and a panel's product is the same sum over the contracted
  axis, term by term, as the corresponding rows of the whole product, so each projection leaves exactly the host's
  product in its result array. Everything around the projections is the same sequence of host operations in both
  programs, so the two results are one term of the argument arrays. No law of arithmetic beyond reading a product as its
  sum is used, and the precondition (finite inputs) is never opened.

  The idealization rewrote no operation, so the kernel is its own idealization. The three runs terminate without a
  fault and leave the argument arrays as launched.
-/
import proofs.«134421_j59931973648925_1_alg».proof.Defs
import proofs.«134421_j59931973648925_1_alg».proof.Proof.Gen.Kernel
import proofs.«134421_j59931973648925_1_alg».proof.Proof.Gen.Kernel.Skeleton
import proofs.«134421_j59931973648925_1_alg».proof.Proof.Gen.Kernel.Launch
import proofs.«134421_j59931973648925_1_alg».proof.Proof.Gen.Kernel.Points
import proofs.«134421_j59931973648925_1_alg».proof.Proof.Gen.Kernel.Frame
import proofs.«134421_j59931973648925_1_alg».proof.Proof.Gen.KernelIdeal
import proofs.«134421_j59931973648925_1_alg».proof.Proof.Gen.KernelIdeal.Skeleton
import proofs.«134421_j59931973648925_1_alg».proof.Proof.Gen.KernelIdeal.Launch
import proofs.«134421_j59931973648925_1_alg».proof.Proof.Gen.KernelIdeal.Points
import proofs.«134421_j59931973648925_1_alg».proof.Proof.Gen.KernelIdeal.Frame
import proofs.«134421_j59931973648925_1_alg».proof.Proof.Gen.ReferenceIdeal
import proofs.«134421_j59931973648925_1_alg».proof.Proof.Gen.Pre_finite_inputs
import proofs.«134421_j59931973648925_1_alg».proof.Proof.Gen.ReferenceIdeal.Run
import proofs.«134421_j59931973648925_1_alg».proof.Proof.Gen.ReferenceIdeal.Read
import proofs.«134421_j59931973648925_1_alg».proof.Proof.WholeRun
import proofs.«134421_j59931973648925_1_alg».proof.Proof.Forward
import proofs.«134421_j59931973648925_1_alg».proof.Proof.Agreement
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments, both programs end with the network's value at those arguments in
    their result arrays. -/
theorem algebraic : Cert.algebraic_KernelIdeal_ReferenceIdeal := by
  intro m ρ m' ρ' _ hagree
  refine ⟨fun c => Cert.KernelIdeal.Forward.forward (Cert.KernelIdeal.Forward.inX m c) (Cert.KernelIdeal.Forward.inE m c)
    (Cert.KernelIdeal.Forward.inW m c) (Cert.KernelIdeal.Forward.inW1 m c) (Cert.KernelIdeal.Forward.inB1 m c)
    (Cert.KernelIdeal.Forward.inW2 m c) (Cert.KernelIdeal.Forward.inB2 m c), ?_, ?_⟩
  · exact (θ_run Cert.KernelIdeal.defs _ _).mono
      (fun _ h c => ⟨(h c).1.trans (Cert.KernelIdeal.Forward.result_value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Agreement.reference_value]
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
